-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x6 : S_.BroadcastsInDim S128x6 (![] : Fin 0 → Fin S128x6.rank)
  reducesTo_S128x6_S_d0_1 : S128x6.ReducesTo [0, 1] S_
  bcast_S_S6 : S_.BroadcastsInDim S6 (![] : Fin 0 → Fin S6.rank)
  reducesTo_S6_S_d0 : S6.ReducesTo [0] S_

variable [Facts]

def fn_part2 {F : FTy → Type} [FloatOps F] (main_arg8 : FVec F S6 .f32) (main_v33 : IVec S_ 1) : IVec S_ 1 :=
  let main_v34 : FVec F S6 .f32 := Host.absf main_arg8
  let main_cst_12 : FVec F S_ .f32 := constant S_ .f32 0x7F800000#32
  let main_v35 : FVec F S6 .f32 := broadcastInDim S6 ![] bcast_S_S6 main_cst_12
  let main_v36 : IVec S6 1 := cmpf .olt main_v34 main_v35
  let main_c_13 : IVec S_ 1 := constantI S_ 1 1#1
  let main_v37 : IVec S_ 1 := (fun x v => Host.reduce IntOp.andi x v reducesTo_S6_S_d0 h_S_) main_v36 main_c_13
  let main_v38 : IVec S_ 1 := andi main_v33 main_v37
  main_v38

def fn_part1 {F : FTy → Type} [FloatOps F] (main_arg5 : FVec F S128 .f32) (main_arg6 : FVec F S128x128 .f32) (main_arg7 : FVec F S128x6 .f32) (main_arg8 : FVec F S6 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x6 .f32 := Host.absf main_arg7
  let main_cst_10 : FVec F S_ .f32 := constant S_ .f32 0x7F800000#32
  let main_v30 : FVec F S128x6 .f32 := broadcastInDim S128x6 ![] bcast_S_S128x6 main_cst_10
  let main_v31 : IVec S128x6 1 := cmpf .olt main_v29 main_v30
  let main_c_11 : IVec S_ 1 := constantI S_ 1 1#1
  let main_v32 : IVec S_ 1 := (fun x v => Host.reduce IntOp.andi x v reducesTo_S128x6_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128x6 .f32) (main_arg8 : FVec F S6 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S1x128 : Shape := ⟨2, ![1, 128]⟩
abbrev S5000x128 : Shape := ⟨2, ![5000, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x6 : Shape := ⟨2, ![1, 6]⟩
abbrev S100000x6 : Shape := ⟨2, ![100000, 6]⟩
abbrev S5000x1 : Shape := ⟨2, ![5000, 1]⟩
abbrev S5000x6 : Shape := ⟨2, ![5000, 6]⟩
abbrev S5000 : Shape := ⟨1, ![5000]⟩

abbrev nBuf : Space → Nat
  | .hbm => 46
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x6, .f32⟩
  | .hbm, ⟨8, _⟩ => ⟨S6, .f32⟩
  | .hbm, ⟨9, _⟩ => ⟨S1x128, .f32⟩
  | .hbm, ⟨10, _⟩ => ⟨S100000x128, .bf16⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .bf16⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S1x128, .f32⟩
  | .hbm, ⟨44, _⟩ => ⟨S1x6, .f32⟩
  | .hbm, ⟨45, _⟩ => ⟨S100000x6, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .bf16⟩
  | .local _ .vmem, ⟨5, _⟩ => ⟨S5000x128, .bf16⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x128, .bf16⟩
  | .local _ .vmem, ⟨11, _⟩ => ⟨S5000x128, .bf16⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S128x6, .f32⟩
  | .local _ .vmem, ⟨16, _⟩ => ⟨S1x6, .f32⟩
  | .local _ .vmem, ⟨17, _⟩ => ⟨S5000x6, .f32⟩
  | .local _ .vmem, ⟨18, _⟩ => ⟨S5000x6, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x6 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x6 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x6 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S6_S1x6 : S6.ShapeCasts S1x6
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  reduces_S5000x128_S5000 : S5000x128.Reduces [1] S5000
  shapeCasts_S5000_S5000x1 : S5000.ShapeCasts S5000x1
  inb_S128x6_S128x6_0_0 : ∀ a, (![0, 0] : Fin 2 → Nat) a + S128x6.size a ≤ S128x6.size a
  h_S128x6 : 0 < S128x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S5000x6 : S1x6.Broadcasts S5000x6
  inb_S5000x6_S5000x6_0_0 : ∀ a, (![0, 0] : Fin 2 → Nat) a + S5000x6.size a ≤ S5000x6.size a
  h_S5000x6 : 0 < S5000x6.numel
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x6_S5000x6_1_0_0_1_n_n_wf : DotDims.WF S5000x128 S128x6 S5000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .bf16 = 32 ∨ (Rect.block (s := S100000x128) S5000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x6.size a ≤ S128x6.size a
  hwx1_6 : ∀ i : grid1.Coords, EltTy.bits .f32 = 32 ∨ (Rect.block (s := S128x6) S128x6.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x6.size a ≤ S1x6.size a
  hwx1_7 : ∀ i : grid1.Coords, EltTy.bits .f32 = 32 ∨ (Rect.block (s := S1x6) S1x6.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x6.size a ≤ S100000x6.size a
  hwx1_8 : ∀ i : grid1.Coords, EltTy.bits .f32 = 32 ∨ (Rect.block (s := S100000x6) S5000x6.size (cc1_transform_8 i) (hinb1_8 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x6_S5000x6_1_0_0_1_n_n : DotDims S5000x128 S128x6 S5000x6 where
  lhsContracting := [1]
  rhsContracting := [0]
  lhsNonContracting := [0]
  rhsNonContracting := [1]
  lhsBatch := []
  rhsBatch := []
  wf := dot_S5000x128_S128x6_S5000x6_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128x6.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S1x6.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v27) S5000x6.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S1x128 : Shape := ⟨2, ![1, 128]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x6 : Shape := ⟨2, ![100000, 6]⟩
abbrev S1x6 : Shape := ⟨2, ![1, 6]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x6, .f32⟩
  | .hbm, ⟨8, _⟩ => ⟨S6, .f32⟩
  | .hbm, ⟨9, _⟩ => ⟨S100000x128, .f32⟩
  | .hbm, ⟨10, _⟩ => ⟨S1x128, .f32⟩
  | .hbm, ⟨11, _⟩ => ⟨S100000x128, .f32⟩
  | .hbm, ⟨12, _⟩ => ⟨S100000x128, .f32⟩
  | .hbm, ⟨13, _⟩ => ⟨S_, .f32⟩
  | .hbm, ⟨14, _⟩ => ⟨S100000x128, .f32⟩
  | .hbm, ⟨15, _⟩ => ⟨S100000x128, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S_, .f32⟩
  | .hbm, ⟨34, _⟩ => ⟨S1600000, .f32⟩
  | .hbm, ⟨35, _⟩ => ⟨S_, .f32⟩
  | .hbm, ⟨36, _⟩ => ⟨S100000, .f32⟩
  | .hbm, ⟨37, _⟩ => ⟨S1600000x1, .i32⟩
  | .hbm, ⟨38, _⟩ => ⟨S100000, .f32⟩
  | .hbm, ⟨39, _⟩ => ⟨S_, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000, .f32⟩
  | .hbm, ⟨55, _⟩ => ⟨S100000x1, .f32⟩
  | .hbm, ⟨56, _⟩ => ⟨S100000x1, .f32⟩
  | .hbm, ⟨57, _⟩ => ⟨S_, .f32⟩
  | .hbm, ⟨58, _⟩ => ⟨S_, .f32⟩
  | .hbm, ⟨59, _⟩ => ⟨S100000x1, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S100000x6, .f32⟩
  | .hbm, ⟨67, _⟩ => ⟨S1x6, .f32⟩
  | .hbm, ⟨68, _⟩ => ⟨S100000x6, .f32⟩
  | .hbm, ⟨69, _⟩ => ⟨S100000x6, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_call1_v0 : Ref sig .tc := ⟨.hbm, 40, rfl⟩
abbrev main_call1_v1 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call2_v0 : Ref sig .tc := ⟨.hbm, 52, rfl⟩
abbrev main_call2_cst : Ref sig .tc := ⟨.hbm, 53, rfl⟩
abbrev main_call2_v1 : Ref sig .tc := ⟨.hbm, 54, rfl⟩
abbrev main_call2_v2 : Ref sig .tc := ⟨.hbm, 55, rfl⟩
abbrev main_v33 : Ref sig .tc := ⟨.hbm, 56, rfl⟩
abbrev main_cst_4 : Ref sig .tc := ⟨.hbm, 57, rfl⟩
abbrev main_call3_v0 : Ref sig .tc := ⟨.hbm, 58, rfl⟩
abbrev main_call3_v1 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call4_cst : Ref sig .tc := ⟨.hbm, 63, rfl⟩
abbrev main_call4_v0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S6_S1x6_1 : S6.BroadcastsInDim S1x6 (![1] : Fin 1 → Fin S1x6.rank)
  bcast_S1x6_S100000x6_0_1 : S1x6.BroadcastsInDim S100000x6 (![0, 1] : Fin 2 → Fin S100000x6.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x6_S100000x6_1_0_0_1_n_n_wf : DotDims.WF S100000x128 S128x6 S100000x6 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x6_S100000x6_1_0_0_1_n_n : DotDims S100000x128 S128x6 S100000x6 where
  lhsContracting := [1]
  rhsContracting := [0]
  lhsNonContracting := [0]
  rhsNonContracting := [1]
  lhsBatch := []
  rhsBatch := []
  wf := dot_S100000x128_S128x6_S100000x6_1_0_0_1_n_n_wf

class Facts : Prop extends Facts₀ where

variable [Facts]
-- ==== Proof.KernelRun.lean ====
/-
  The idealized kernel's run with its result named. Every weakly fair execution of the program terminates without a
  fault; at the end each core's result buffer holds the contents the last segment boundary assigns to it (the second
  region's output array after all its write-backs), and every argument array is as launched. This is the run of the
  program's segments - host stretches and the two regions in order - read at one more buffer than the arguments:
  the final thread state holds every unscoped buffer at the last boundary's contents, the result buffer among them.
-/
import proofs.«126765_j3324304687696_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run: termination without fault, the result buffer at the last boundary's contents, the arguments unchanged. -/
theorem run_named : θ_run defs (onTc (τ := τ) (main (F := F))) ⟨m, fun _ => 0, ρ⟩ (fun r => ∀ c : Dev nD,
      r.2.mem ((c.tc : Thread nD τ).loc main_v27) = W6 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v27 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.Named

end
-- ==== Proof.HostSide.lean ====
/-
  What the two regions find in their operand arrays, as functions of the launch memory.

  Between the regions the program gathers each edge's source row of the projected features, adds the rows into their
  destination nodes, counts each node's incoming edges and clamps the count below by one. That chain is carried here
  as two named functions of the projected array and the edge list - the neighbour sum `nsum` and the clamped count
  `count` - and is never opened: the other program applies the same operations, so only their operands matter.

  The first region reads the input features, the projection matrix, and the projection bias as a one-row matrix. The
  second reads the neighbour sum, the reciprocal of the clamped count as a column, the projected features the first
  region left, and the remaining weights, each bias as a one-row matrix. No host operation writes an argument array.
-/
import proofs.«126765_j3324304687696_2_alg».proof.Proof.Gen.KernelIdeal.Frame
import Idealize.ShloMosaic.Lib.StableHlo.Run

set_option maxRecDepth 16384

noncomputable section

namespace Cert.KernelIdeal.Host

open Idealize.ShloMosaic Idealize.ShloMosaic.TcCoe Idealize.ShloMosaic.Tactic Idealize.SL.Sem Idealize.ShloMosaic.StableHlo
open Cert.KernelIdeal Cert.KernelIdeal.Gen

variable {F : FTy → Type} [FloatOps F]

/-- Row `r` (0: sources, 1: destinations) of the edge list, as a vector. -/
def dests (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

def sources (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- The sources with a negative index wrapped around by the node count. -/
def wrapped (ei : (⟨S2x1600000, .i32⟩ : BufTy).Contents (Elt F)) : (⟨S1600000, .i32⟩ : BufTy).Contents (Elt F) :=
  select (cmpi .slt (sources ei) (broadcastInDim S1600000 ![] bcast_S_S1600000 (constantI S_ 32 0#32)))
    (addi (sources ei) (broadcastInDim S1600000 ![] bcast_S_S1600000 (constantI S_ 32 100000#32))) (sources ei)

/-- The neighbour sum: each edge's source row of `xp`, added into the edge's destination row. -/
def nsum (xp : (⟨S100000x128, .bf16⟩ : BufTy).Contents (Elt F)) (ei : (⟨S2x1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dests ei))
    (extf .f32 (Host.gather gather_S100000x128_S1600000x1_S1600000x128_1_0_n_n_0_1_1128 xp
      (broadcastInDim S1600000x1 ![0] bcast_S1600000_S1600000x1_0 (wrapped ei))) bitsLt_bf16_f32)

/-- The number of edges into each node, clamped below by one. -/
def count (ei : (⟨S2x1600000, .i32⟩ : BufTy).Contents (Elt F)) : (⟨S100000, .f32⟩ : BufTy).Contents (Elt F) :=
  maximumf (broadcastInDim S100000 ![] bcast_S_S100000 (constant S_ .f32 0x3F800000#32))
    (Host.scatterAdd scatter_S100000_S1600000x1_S1600000_n_0_0_1
      (broadcastInDim S100000 ![] bcast_S_S100000 (constant S_ .f32 0x00000000#32))
      (broadcastInDim S1600000x1 ![0] bcast_S1600000_S1600000x1_0 (dests ei))
      (broadcastInDim S1600000 ![] bcast_S_S1600000 (constant S_ .f32 0x3F800000#32)))

/-- The reciprocal of the clamped count, as a column. -/
def recip (ei : (⟨S2x1600000, .i32⟩ : BufTy).Contents (Elt F)) : (⟨S100000x1, .f32⟩ : BufTy).Contents (Elt F) :=
  shapeCast S100000x1 (Host.divf (broadcastInDim S100000 ![] bcast_S_S100000 (constant S_ .f32 0x3F800000#32)) (count ei))
    shapeCasts_S100000_S100000x1

variable (m : (ℓ : Loc nD τ sig) → Buf (Elt F) ℓ) (ρ : Dev nD → PrngReg)

/-- A stretch of host operations leaves a buffer none of them writes as it was. -/
macro "stretch_skips " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The first region's operands -/

theorem in0_x (c : Dev nD) : V1 m ρ c main_arg0 = m ((c : Thread nD τ).loc main_arg0) := by
  show StableHlo.after hostOps0 (W0 m ρ c) (Proc.devRef .tc main_arg0) = W0 m ρ c (Proc.devRef .tc main_arg0)
  stretch_skips hostOps0

theorem in0_w (c : Dev nD) : V1 m ρ c main_arg2 = m ((c : Thread nD τ).loc main_arg2) := by
  show StableHlo.after hostOps0 (W0 m ρ c) (Proc.devRef .tc main_arg2) = W0 m ρ c (Proc.devRef .tc main_arg2)
  stretch_skips hostOps0

theorem in0_b (c : Dev nD) :
    V1 m ρ c main_v0 = shapeCast S1x128 (m ((c : Thread nD τ).loc main_arg3)) shapeCasts_S128_S1x128 := by
  show StableHlo.after hostOps0 (W0 m ρ c) (Proc.devRef .tc main_v0) = _
  after_results
  rfl

/-! ## The boundary after the first region, at an argument -/

theorem mid_arg (c : Dev nD) (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = W0 m ρ c (Proc.devRef .tc b) :=
  (W2_of_ne m ρ c b hb).trans h0

theorem mid_edges (c : Dev nD) : W2 m ρ c (Proc.devRef .tc main_arg1) = m ((c : Thread nD τ).loc main_arg1) :=
  mid_arg m ρ c main_arg1 (by decide) (by stretch_skips hostOps0)

/-- Three stretches in a row that do not write a buffer. -/
theorem through (c : Dev nD) (b : Ref sig .tc)
    (h2 : StableHlo.after hostOps1_2 (W4 m ρ c) (Proc.devRef .tc b) = W4 m ρ c (Proc.devRef .tc b))
    (h1 : StableHlo.after hostOps1_1 (W3 m ρ c) (Proc.devRef .tc b) = W3 m ρ c (Proc.devRef .tc b))
    (h0 : StableHlo.after hostOps1 (W2 m ρ c) (Proc.devRef .tc b) = W2 m ρ c (Proc.devRef .tc b)) :
    V5 m ρ c b = W2 m ρ c (Proc.devRef .tc b) :=
  h2.trans (h1.trans h0)

/-! ## The second region's operands -/

theorem in1_sum (c : Dev nD) :
    V5 m ρ c main_v16 = nsum (W2 m ρ c (Proc.devRef .tc main_v1)) (m ((c : Thread nD τ).loc main_arg1)) := by
  show StableHlo.after hostOps1_2 (StableHlo.after hostOps1_1 (StableHlo.after hostOps1 (W2 m ρ c))) (Proc.devRef .tc main_v16) = _
  after_results
  rw [mid_edges m ρ c]
  rfl

theorem in1_recip (c : Dev nD) : V5 m ρ c main_v24 = recip (m ((c : Thread nD τ).loc main_arg1)) := by
  show StableHlo.after hostOps1_2 (StableHlo.after hostOps1_1 (StableHlo.after hostOps1 (W2 m ρ c))) (Proc.devRef .tc main_v24) = _
  after_results
  rw [mid_edges m ρ c]
  rfl

theorem in1_xp (c : Dev nD) : V5 m ρ c main_v1 = W2 m ρ c (Proc.devRef .tc main_v1) :=
  through m ρ c main_v1 (by stretch_skips hostOps1_2) (by stretch_skips hostOps1_1) (by stretch_skips hostOps1)

theorem in1_wl (c : Dev nD) : V5 m ρ c main_arg4 = m ((c : Thread nD τ).loc main_arg4) :=
  (through m ρ c main_arg4 (by stretch_skips hostOps1_2) (by stretch_skips hostOps1_1) (by stretch_skips hostOps1)).trans
    (mid_arg m ρ c main_arg4 (by decide) (by stretch_skips hostOps0))

theorem in1_wr (c : Dev nD) : V5 m ρ c main_arg6 = m ((c : Thread nD τ).loc main_arg6) :=
  (through m ρ c main_arg6 (by stretch_skips hostOps1_2) (by stretch_skips hostOps1_1) (by stretch_skips hostOps1)).trans
    (mid_arg m ρ c main_arg6 (by decide) (by stretch_skips hostOps0))

theorem in1_wf (c : Dev nD) : V5 m ρ c main_arg7 = m ((c : Thread nD τ).loc main_arg7) :=
  (through m ρ c main_arg7 (by stretch_skips hostOps1_2) (by stretch_skips hostOps1_1) (by stretch_skips hostOps1)).trans
    (mid_arg m ρ c main_arg7 (by decide) (by stretch_skips hostOps0))

theorem mid_bl (c : Dev nD) : W2 m ρ c (Proc.devRef .tc main_arg5) = m ((c : Thread nD τ).loc main_arg5) :=
  mid_arg m ρ c main_arg5 (by decide) (by stretch_skips hostOps0)

theorem mid_bf (c : Dev nD) : W2 m ρ c (Proc.devRef .tc main_arg8) = m ((c : Thread nD τ).loc main_arg8) :=
  mid_arg m ρ c main_arg8 (by decide) (by stretch_skips hostOps0)

theorem in1_bl (c : Dev nD) :
    V5 m ρ c main_v25 = shapeCast S1x128 (m ((c : Thread nD τ).loc main_arg5)) shapeCasts_S128_S1x128 := by
  show StableHlo.after hostOps1_2 (StableHlo.after hostOps1_1 (StableHlo.after hostOps1 (W2 m ρ c))) (Proc.devRef .tc main_v25) = _
  after_results
  rw [mid_bl m ρ c]
  rfl

theorem in1_bf (c : Dev nD) :
    V5 m ρ c main_v26 = shapeCast S1x6 (m ((c : Thread nD τ).loc main_arg8)) shapeCasts_S6_S1x6 := by
  show StableHlo.after hostOps1_2 (StableHlo.after hostOps1_1 (StableHlo.after hostOps1 (W2 m ρ c))) (Proc.devRef .tc main_v26) = _
  after_results
  rw [mid_bf m ρ c]
  rfl

end Cert.KernelIdeal.Host

end
-- ==== Proof.RowSpec.lean ====
/-
  The layer, one node (one row) at a time, over the extended reals.

  A node's projected features are the rectified affine image of its input row. Its pre-normalisation output adds the
  aggregated neighbour row through one weight matrix, a bias, and the node's own projected row through a second
  matrix. That output is divided by its Euclidean length (kept away from zero by a small positive floor), rectified,
  and sent through the classifier matrix plus bias. Every step uses only the node's own row, so the whole layer is a
  function of rows; a block of rows and the whole array are the same function read at different rows.

  The aggregated row is the neighbour sum divided by the clamped neighbour count. One side forms it as the sum times
  the count's reciprocal, the other as the quotient: on the extended reals these agree whenever the count is not
  zero (`mul_recip_eq_div`), and a count clamped below by one is never zero (`clamped_ne_zero`).
-/
import Idealize.ShloMosaic.PureOps.Ideal.Laws
import Idealize.ShloMosaic.Lib.ValueIdx

noncomputable section

namespace Cert.NodeRow

open Idealize.ShloMosaic Idealize.ShloMosaic.ValueIdx

/-- A matrix and a vector of extended reals, over literal extents. -/
abbrev Mat (a b : ℕ) := (⟨2, ![a, b]⟩ : Shape).Idx → EReal
abbrev Vct (a : ℕ) := (⟨1, ![a]⟩ : Shape).Idx → EReal

/-- The two float literals of the layer, kept as their words: zero (the rectifier's floor) and the small positive
    floor under the Euclidean length. -/
abbrev zeroW : EReal := Ideal.ofBits .f32 0x00000000#32
abbrev floorW : EReal := Ideal.ofBits .f32 0x2B8CBCCC#32

/-- Entry `q` of a node's projected features: `max (x · W[:, q] + b q) 0`. -/
def proj (x : Fin 128 → EReal) (W : Mat 128 128) (b : Fin 128 → EReal) (q : Fin 128) : EReal :=
  max ((∑ k : Fin 128, x k * W (ix2 k q)) + b q) zeroW

/-- Entry `q` of a node's output before normalisation: the aggregated row `a` through `Wl`, plus `bl`, plus the node's
    own projected row `xr` through `Wr`. -/
def pre (a xr : Fin 128 → EReal) (Wl : Mat 128 128) (bl : Fin 128 → EReal) (Wr : Mat 128 128) (q : Fin 128) : EReal :=
  ((∑ k : Fin 128, a k * Wl (ix2 k q)) + bl q) + ∑ k : Fin 128, xr k * Wr (ix2 k q)

/-- The Euclidean length of a row. -/
def len (o : Fin 128 → EReal) : EReal := Ideal.sqrt (∑ k : Fin 128, o k * o k)

/-- Entry `k` of the row divided by its floored length, rectified. -/
def unit (o : Fin 128 → EReal) (k : Fin 128) : EReal := max (Ideal.div (o k) (max floorW (len o))) zeroW

/-- Entry `q` of a node's class scores: the normalised, rectified row through `Wf`, plus `bf`. -/
def score (o : Fin 128 → EReal) (Wf : Mat 128 6) (bf : Fin 6 → EReal) (q : Fin 6) : EReal :=
  (∑ k : Fin 128, unit o k * Wf (ix2 k q)) + bf q

/-- Times the reciprocal is the quotient, for a divisor that is not zero (infinite divisors included: both sides
    are then zero). -/
theorem mul_recip_eq_div (x c : EReal) (hc : c ≠ 0) : x * Ideal.div 1 c = Ideal.div x c := by
  rw [Ideal.div, Ideal.div, if_neg hc, if_neg hc, one_mul]

/-- A count clamped below by a positive number is not zero. -/
theorem clamped_ne_zero (one n : EReal) (h1 : 0 < one) : max one n ≠ 0 :=
  (lt_of_lt_of_le h1 (le_max_left one n)).ne'

end Cert.NodeRow

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.Payload.lean ====
/-
  The two block computations of the layer, read at one entry over the extended reals.

  The first block sends 5000 rows through the projection: a contraction with a square matrix, a bias row added to
  every row, and the rectifier. The second forms the aggregated rows (each neighbour-sum row times its reciprocal
  count), sends them and the projected rows through two square matrices with a bias row, divides every row by its
  floored Euclidean length, rectifies, and contracts with the classifier matrix before adding its bias row. Changes
  of float format are the identity on the extended reals.

  Each step is entrywise, or a contraction along the shared axis of extent 128 (a sum of 128 products), or a row or
  a column spread over the block, or a sum along a row. Entry `(r, q)` of either result therefore depends on row `r`
  of the row-indexed operands only, and equals the row-wise specification (`Cert.NodeRow.proj`, `Cert.NodeRow.score`
  of `Cert.NodeRow.pre`) at that row. The only reordering is `max` being commutative, for the floor under the length.
-/
import proofs.«126765_j3324304687696_2_alg».proof.Proof.Gen.KernelIdeal.Skeleton
import proofs.«126765_j3324304687696_2_alg».proof.Proof.RowSpec
import proofs.«126765_j3324304687696_2_alg».proof.Proof.LibColumn
import proofs.«126765_j3324304687696_2_alg».proof.Proof.LibLaneSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-! The layer's two block computations read at one entry. Every step is entrywise, a contraction along an axis of
    extent 128, a broadcast of a row or of a column, or a sum along a row; so the entry `(r, q)` of a block's result
    is the row-wise specification applied to row `r` of the operands. -/

/-- The two contractions of the layer: a `[5000, 128]` block against a `[128, 128]` matrix and against a
    `[128, 6]` matrix, each along the shared axis of extent 128. -/
abbrev dotSq := dot_S5000x128_S128x128_S5000x128_1_0_0_1_n_n
abbrev dotCls := dot_S5000x128_S128x6_S5000x6_1_0_0_1_n_n

/-! ## A contraction into the zero array is the sum of products over the shared coordinate -/

theorem matmulSq_lhs0 (i : S5000x128.Idx) (c : dotSq.contr.Idx) : (dotSq.lhsIdx i c 0).val = (i 0).val := by
  unfold DotDims.lhsIdx
  rw [dif_neg (show ¬(0 : Fin S5000x128.rank) ∈ dotSq.lhsBatch by decide),
    dif_pos (show (0 : Fin S5000x128.rank) ∈ dotSq.lhsNonContracting by decide)]
  rfl
theorem matmulSq_lhs1 (i : S5000x128.Idx) (c : dotSq.contr.Idx) : (dotSq.lhsIdx i c 1).val = (c ⟨0, by decide⟩).val :=
  dotSq.lhsIdx_val_of_single rfl i c
theorem matmulSq_rhs0 (i : S5000x128.Idx) (c : dotSq.contr.Idx) : (dotSq.rhsIdx i c 0).val = (c ⟨0, by decide⟩).val :=
  dotSq.rhsIdx_val_of_single rfl i c
theorem matmulSq_rhs1 (i : S5000x128.Idx) (c : dotSq.contr.Idx) : (dotSq.rhsIdx i c 1).val = (i 1).val := by
  unfold DotDims.rhsIdx
  rw [dif_neg (show ¬(1 : Fin S128x128.rank) ∈ dotSq.rhsBatch by decide),
    dif_pos (show (1 : Fin S128x128.rank) ∈ dotSq.rhsNonContracting by decide)]
  rfl

theorem matmulSq_at (x : FVec Ideal S5000x128 .bf16) (w : FVec Ideal S128x128 .bf16) (r : Fin 5000) (q : Fin 128) :
    matmul dotSq none x w (constant (F := Ideal) S5000x128 .f32 0x00000000#32) (ix2 r q)
      = ∑ k : Fin 128, x (ix2 r k) * w (ix2 k q) := by
  refine (Ideal.matmul_constant_zero_apply dotSq none x w (ix2 r q)).trans ?_
  rw [← Equiv.sum_comp (contrEquiv1 dotSq 128 rfl rfl).symm]
  refine Finset.sum_congr rfl fun k _ => ?_
  have hk := contrEquiv1_symm_val dotSq 128 rfl rfl k
  have el : dotSq.lhsIdx (ix2 r q) ((contrEquiv1 dotSq 128 rfl rfl).symm k) = ix2 r k := funext fun a => Fin.ext (by
    match a with
    | ⟨0, _⟩ => exact matmulSq_lhs0 _ _
    | ⟨1, _⟩ => exact (matmulSq_lhs1 _ _).trans hk)
  have er : dotSq.rhsIdx (ix2 r q) ((contrEquiv1 dotSq 128 rfl rfl).symm k) = ix2 k q := funext fun a => Fin.ext (by
    match a with
    | ⟨0, _⟩ => exact (matmulSq_rhs0 _ _).trans hk
    | ⟨1, _⟩ => exact matmulSq_rhs1 _ _)
  rw [el, er]

theorem matmulCls_lhs0 (i : S5000x6.Idx) (c : dotCls.contr.Idx) : (dotCls.lhsIdx i c 0).val = (i 0).val := by
  unfold DotDims.lhsIdx
  rw [dif_neg (show ¬(0 : Fin S5000x128.rank) ∈ dotCls.lhsBatch by decide),
    dif_pos (show (0 : Fin S5000x128.rank) ∈ dotCls.lhsNonContracting by decide)]
  rfl
theorem matmulCls_lhs1 (i : S5000x6.Idx) (c : dotCls.contr.Idx) : (dotCls.lhsIdx i c 1).val = (c ⟨0, by decide⟩).val :=
  dotCls.lhsIdx_val_of_single rfl i c
theorem matmulCls_rhs0 (i : S5000x6.Idx) (c : dotCls.contr.Idx) : (dotCls.rhsIdx i c 0).val = (c ⟨0, by decide⟩).val :=
  dotCls.rhsIdx_val_of_single rfl i c
theorem matmulCls_rhs1 (i : S5000x6.Idx) (c : dotCls.contr.Idx) : (dotCls.rhsIdx i c 1).val = (i 1).val := by
  unfold DotDims.rhsIdx
  rw [dif_neg (show ¬(1 : Fin S128x6.rank) ∈ dotCls.rhsBatch by decide),
    dif_pos (show (1 : Fin S128x6.rank) ∈ dotCls.rhsNonContracting by decide)]
  rfl

theorem matmulCls_at (x : FVec Ideal S5000x128 .bf16) (w : FVec Ideal S128x6 .bf16) (r : Fin 5000) (q : Fin 6) :
    matmul dotCls none x w (constant (F := Ideal) S5000x6 .f32 0x00000000#32) (ix2 r q)
      = ∑ k : Fin 128, x (ix2 r k) * w (ix2 k q) := by
  refine (Ideal.matmul_constant_zero_apply dotCls none x w (ix2 r q)).trans ?_
  rw [← Equiv.sum_comp (contrEquiv1 dotCls 128 rfl rfl).symm]
  refine Finset.sum_congr rfl fun k _ => ?_
  have hk := contrEquiv1_symm_val dotCls 128 rfl rfl k
  have el : dotCls.lhsIdx (ix2 r q) ((contrEquiv1 dotCls 128 rfl rfl).symm k) = ix2 r k := funext fun a => Fin.ext (by
    match a with
    | ⟨0, _⟩ => exact matmulCls_lhs0 _ _
    | ⟨1, _⟩ => exact (matmulCls_lhs1 _ _).trans hk)
  have er : dotCls.rhsIdx (ix2 r q) ((contrEquiv1 dotCls 128 rfl rfl).symm k) = ix2 k q := funext fun a => Fin.ext (by
    match a with
    | ⟨0, _⟩ => exact (matmulCls_rhs0 _ _).trans hk
    | ⟨1, _⟩ => exact matmulCls_rhs1 _ _)
  rw [el, er]

/-! ## A bias row spread over the block's rows, and a column spread over its columns -/

/-- A `[1, b]` row, recast to its own shape and broadcast over `5000` rows, reads its entry of the column. -/
theorem rowBias_at {b : ℕ} {α : Type} (v : (⟨2, ![1, b]⟩ : Shape).Idx → α) (hc : (⟨2, ![1, b]⟩ : Shape).ShapeCasts ⟨2, ![1, b]⟩)
    (hb : (⟨2, ![1, b]⟩ : Shape).Broadcasts ⟨2, ![5000, b]⟩) (r : Fin 5000) (q : Fin b) :
    broadcastTo ⟨2, ![5000, b]⟩ (shapeCast ⟨2, ![1, b]⟩ v hc) hb (ix2 r q) = v (ix2 (0 : Fin 1) q) := by
  rw [broadcastTo_1b_ab_apply, shapeCast_self]

/-- A `[5000, 1]` column, recast to its own shape and broadcast over `128` columns, reads its entry of the row. -/
theorem colScale_at {α : Type} (v : (⟨2, ![5000, 1]⟩ : Shape).Idx → α) (hc : (⟨2, ![5000, 1]⟩ : Shape).ShapeCasts ⟨2, ![5000, 1]⟩)
    (hb : (⟨2, ![5000, 1]⟩ : Shape).Broadcasts ⟨2, ![5000, 128]⟩) (r : Fin 5000) (k : Fin 128) :
    broadcastTo ⟨2, ![5000, 128]⟩ (shapeCast ⟨2, ![5000, 1]⟩ v hc) hb (ix2 r k) = v (ix2 r (0 : Fin 1)) := by
  rw [Cert.GraphConv.Column.broadcastTo_a1_ab_apply, shapeCast_self]

/-! ## The projection block -/

theorem proj_at (v0 : Vec Ideal S5000x128 .f32) (v2 : Vec Ideal S128x128 .f32) (v5 : Vec Ideal S1x128 .f32) (r : Fin 5000) (q : Fin 128) :
    k0_pay1 (F := Ideal) v0 v2 v5 (ix2 r q)
      = Cert.NodeRow.proj (fun k => v0 (ix2 r k)) v2 (fun q' => v5 (ix2 (0 : Fin 1) q')) q := by
  unfold k0_pay1 Cert.NodeRow.proj
  show max (matmul dotSq none (truncf .bf16 v0 bitsLt_bf16_f32) (truncf .bf16 v2 bitsLt_bf16_f32)
        (constant (F := Ideal) S5000x128 .f32 0x00000000#32) (ix2 r q)
      + broadcastTo S5000x128 (shapeCast S1x128 v5 shapeCasts_S1x128_S1x128) broadcasts_S1x128_S5000x128 (ix2 r q))
      (Ideal.ofBits .f32 0x00000000#32) = _
  rw [matmulSq_at, rowBias_at]
  rfl

/-! ## The classifier block -/

/-- The block's output before normalisation: the aggregated block (neighbour sums times the reciprocal counts'
    column) through one matrix, plus the bias row, plus the projected block through the other matrix. -/
def preBlock (v0 : FVec Ideal S5000x128 .f32) (v2 : FVec Ideal S5000x1 .f32) (v7 : FVec Ideal S5000x128 .bf16)
    (v9 v11 : FVec Ideal S128x128 .f32) (v14 : FVec Ideal S1x128 .f32) : FVec Ideal S5000x128 .f32 :=
  addf (addf
    (matmul dotSq none
      (truncf .bf16 (mulf (shapeCast S5000x128 v0 shapeCasts_S5000x128_S5000x128)
        (broadcastTo S5000x128 (shapeCast S5000x1 v2 shapeCasts_S5000x1_S5000x1) broadcasts_S5000x1_S5000x128)) bitsLt_bf16_f32)
      (truncf .bf16 v9 bitsLt_bf16_f32) (constant (F := Ideal) S5000x128 .f32 0x00000000#32))
    (broadcastTo S5000x128 (shapeCast S1x128 v14 shapeCasts_S1x128_S1x128) broadcasts_S1x128_S5000x128))
    (matmul dotSq none (shapeCast S5000x128 v7 shapeCasts_S5000x128_S5000x128)
      (truncf .bf16 v11 bitsLt_bf16_f32) (constant (F := Ideal) S5000x128 .f32 0x00000000#32))

theorem preBlock_at (v0 : FVec Ideal S5000x128 .f32) (v2 : FVec Ideal S5000x1 .f32) (v7 : FVec Ideal S5000x128 .bf16)
    (v9 v11 : FVec Ideal S128x128 .f32) (v14 : FVec Ideal S1x128 .f32) (r : Fin 5000) (k : Fin 128) :
    preBlock v0 v2 v7 v9 v11 v14 (ix2 r k)
      = Cert.NodeRow.pre (fun j => v0 (ix2 r j) * v2 (ix2 r (0 : Fin 1))) (fun j => v7 (ix2 r j)) v9
          (fun q' => v14 (ix2 (0 : Fin 1) q')) v11 k := by
  unfold preBlock Cert.NodeRow.pre
  refine congrArg₂ (· + ·) (congrArg₂ (· + ·) ?_ ?_) ?_
  · refine (matmulSq_at _ _ r k).trans (Finset.sum_congr rfl fun j _ => ?_)
    show (shapeCast S5000x128 v0 shapeCasts_S5000x128_S5000x128 (ix2 r j)
        * broadcastTo S5000x128 (shapeCast S5000x1 v2 shapeCasts_S5000x1_S5000x1) broadcasts_S5000x1_S5000x128 (ix2 r j))
        * v9 (ix2 j k) = _
    rw [colScale_at, shapeCast_self]
  · exact rowBias_at v14 _ _ r k
  · refine (matmulSq_at _ _ r k).trans ?_
    rw [shapeCast_self]
    rfl

/-- The Euclidean lengths of the rows of a block, kept as a column: the square root of each row's sum of squares. -/
theorem lenCol_at (o : FVec Ideal S5000x128 .f32) (r : Fin 5000) (u : Fin 1) :
    sqrt (shapeCast S5000x1 (multiReduction (F := Ideal) .add [1] S5000 (mulf o o) 0x00000000#32
        reduces_S5000x128_S5000 (.inl rfl) rfl) shapeCasts_S5000_S5000x1) (ix2 r u)
      = Cert.NodeRow.len (fun k => o (ix2 r k)) := by
  unfold Cert.NodeRow.len
  show Ideal.sqrt (shapeCast S5000x1 _ shapeCasts_S5000_S5000x1 (ix2 r u)) = _
  rw [Cert.GraphConv.Column.shapeCast_a_a1_apply]
  exact congrArg Ideal.sqrt (Cert.LaneSum.sum_last2 (a := 5000) (b := 128) (mulf o o) 0x00000000#32
    reduces_S5000x128_S5000 (.inl rfl) rfl r)

/-- The same column floored: the larger of the small positive floor and the row's length. -/
theorem floorCol_at (o : FVec Ideal S5000x128 .f32) (r : Fin 5000) (u : Fin 1) :
    maximumf (sqrt (shapeCast S5000x1 (multiReduction (F := Ideal) .add [1] S5000 (mulf o o) 0x00000000#32
        reduces_S5000x128_S5000 (.inl rfl) rfl) shapeCasts_S5000_S5000x1))
      (broadcast S5000x1 (Scalar.ofBits (F := Ideal) .f32 0x2B8CBCCC#32)) (ix2 r u)
      = max Cert.NodeRow.floorW (Cert.NodeRow.len (fun k => o (ix2 r k))) := by
  refine Eq.trans ?_ (max_comm _ _)
  exact congrArg (max · (Ideal.ofBits .f32 0x2B8CBCCC#32)) (lenCol_at o r u)

/-- A block divided row by row by its floored Euclidean lengths, rectified, through the classifier matrix. -/
def scoreBlock (o : FVec Ideal S5000x128 .f32) (v31 : FVec Ideal S128x6 .f32) : FVec Ideal S5000x6 .f32 :=
  matmul dotCls none
    (truncf .bf16 (maximumf (divf o (broadcastTo S5000x128
        (maximumf (sqrt (shapeCast S5000x1 (multiReduction (F := Ideal) .add [1] S5000 (mulf o o) 0x00000000#32
            reduces_S5000x128_S5000 (.inl rfl) rfl) shapeCasts_S5000_S5000x1))
          (broadcast S5000x1 (Scalar.ofBits (F := Ideal) .f32 0x2B8CBCCC#32))) broadcasts_S5000x1_S5000x128))
      (broadcast S5000x128 (Scalar.ofBits (F := Ideal) .f32 0x00000000#32))) bitsLt_bf16_f32)
    (truncf .bf16 v31 bitsLt_bf16_f32) (constant (F := Ideal) S5000x6 .f32 0x00000000#32)

theorem scoreBlock_at (o : FVec Ideal S5000x128 .f32) (v31 : FVec Ideal S128x6 .f32) (r : Fin 5000) (q : Fin 6) :
    scoreBlock o v31 (ix2 r q) = ∑ k : Fin 128, Cert.NodeRow.unit (fun j => o (ix2 r j)) k * v31 (ix2 k q) := by
  unfold scoreBlock
  refine (matmulCls_at _ _ r q).trans (Finset.sum_congr rfl fun k _ => ?_)
  refine congrArg (· * v31 (ix2 k q)) ?_
  unfold Cert.NodeRow.unit
  refine congrArg (fun t => max (Ideal.div (o (ix2 r k)) t) (Ideal.ofBits .f32 0x00000000#32)) ?_
  exact (Cert.GraphConv.Column.broadcastTo_a1_ab_apply _ broadcasts_S5000x1_S5000x128 r k).trans (floorCol_at o r 0)

/-- The classifier block's value is the tail above applied to the block before normalisation. -/
theorem k1_pay2_eq (v0 : Vec Ideal S5000x128 .f32) (v2 : Vec Ideal S5000x1 .f32) (v7 : Vec Ideal S5000x128 .bf16)
    (v9 v11 : Vec Ideal S128x128 .f32) (v14 : Vec Ideal S1x128 .f32) (v31 : Vec Ideal S128x6 .f32) :
    k1_pay2 (F := Ideal) v0 v2 v7 v9 v11 v14 v31 = scoreBlock (preBlock v0 v2 v7 v9 v11 v14) v31 := rfl

theorem score_at (v0 : Vec Ideal S5000x128 .f32) (v2 : Vec Ideal S5000x1 .f32) (v7 : Vec Ideal S5000x128 .bf16)
    (v9 v11 : Vec Ideal S128x128 .f32) (v14 : Vec Ideal S1x128 .f32) (v31 : Vec Ideal S128x6 .f32) (v34 : Vec Ideal S1x6 .f32)
    (r : Fin 5000) (q : Fin 6) :
    k1_pay1 (F := Ideal) (k1_pay2 v0 v2 v7 v9 v11 v14 v31) (k1_pay3 v34) (ix2 r q)
      = Cert.NodeRow.score (Cert.NodeRow.pre (fun k => v0 (ix2 r k) * v2 (ix2 r (0 : Fin 1))) (fun k => v7 (ix2 r k)) v9
          (fun q' => v14 (ix2 (0 : Fin 1) q')) v11) v31 (fun q' => v34 (ix2 (0 : Fin 1) q')) q := by
  rw [k1_pay2_eq]
  unfold k1_pay1 k1_pay3 Cert.NodeRow.score
  refine congrArg₂ (· + ·) ?_ (rowBias_at v34 _ _ r q)
  refine (scoreBlock_at _ v31 r q).trans ?_
  rw [show (fun j => preBlock v0 v2 v7 v9 v11 v14 (ix2 r j))
      = Cert.NodeRow.pre (fun k => v0 (ix2 r k) * v2 (ix2 r (0 : Fin 1))) (fun k => v7 (ix2 r k)) v9
          (fun q' => v14 (ix2 (0 : Fin 1) q')) v11 from funext fun j => preBlock_at v0 v2 v7 v9 v11 v14 r j]

end Cert.KernelIdeal.Payload

end
-- ==== Proof.Region0.lean ====
/-
  The first region's output array, whole. Each of the twenty grid points stages rows 5000 t .. 5000 t + 4999 of the
  input features together with the whole projection matrix and bias row, and writes back the same rows of the output.
  What a point writes at local row r is the projected row of global row 5000 t + r; the twenty blocks tile the rows;
  so after the region the output array is the projection of the input array, row by row.
-/
import proofs.«126765_j3324304687696_2_alg».proof.Proof.Gen.KernelIdeal.Frame
import proofs.«126765_j3324304687696_2_alg».proof.Proof.RowSpec
import proofs.«126765_j3324304687696_2_alg».proof.Proof.Payload
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The projection of a whole feature array, row by row; the bias is read from its one-row matrix. -/
def projected (x : S100000x128.Idx → EReal) (W : S128x128.Idx → EReal) (b : S1x128.Idx → EReal) : S100000x128.Idx → EReal :=
  fun i => Cert.NodeRow.proj (fun k => x (ix2 (i 0) k)) W (fun q' => b (ix2 (0 : Fin 1) q')) (i 1)

/-- The index maps over the grid: point t's feature block and output block are block-row t, column block 0; the
    matrix and the bias row are staged whole. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the projected array. -/
theorem flushed_eq (c : Dev nD) (t : Fin cfg0.N) :
    (dat0 V c).flushed 3 t
      = ((cfg0.win 3).blk t).view.read (Elt Ideal) (projected (V c main_arg0) (V c main_arg2) (V c main_v0)) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x128) origin,
    View.ld_unit_zero (S := S1x128) origin]
  obtain ⟨e00, e01, e10, e11, e20, e21, e30, e31⟩ := index_facts t
  funext j
  obtain ⟨r, q, rfl⟩ : ∃ (r : Fin 5000) (q : Fin 128), j = ix2 r q := ⟨j 0, j 1, eq_ix2 j⟩
  show k0_pay1 (iblk0 V c 0 t) (iblk0 V c 1 t) (iblk0 V c 2 t) (ix2 r q)
    = projected (V c main_arg0) (V c main_arg2) (V c main_v0) (((cfg0.win 3).blk t).view.emb (ix2 r q))
  refine (Cert.KernelIdeal.Payload.proj_at (iblk0 V c 0 t) (iblk0 V c 1 t) (iblk0 V c 2 t) r q).trans ?_
  unfold projected
  show Cert.NodeRow.proj (fun k => V c main_arg0 (((cfg0.win 0).blk t).view.emb (ix2 r k)))
        (fun y => V c main_arg2 (((cfg0.win 1).blk t).view.emb y))
        (fun q' => V c main_v0 (((cfg0.win 2).blk t).view.emb (ix2 (0 : Fin 1) q'))) q
     = Cert.NodeRow.proj (fun k => V c main_arg0 (ix2 ((((cfg0.win 3).blk t).view.emb (ix2 r q)) 0) k)) (V c main_arg2)
        (fun q' => V c main_v0 (ix2 (0 : Fin 1) q')) ((((cfg0.win 3).blk t).view.emb (ix2 r q)) 1)
  have h0 : ∀ k : Fin 128, ((cfg0.win 0).blk t).view.emb (ix2 r k)
      = ix2 ((((cfg0.win 3).blk t).view.emb (ix2 r q)) 0) k := by
    intro k; funext a; apply Fin.ext
    match a with
    | ⟨0, _⟩ => show win0_0.index t (0 : Fin 2) * 5000 + 1 * r.val = win0_3.index t (0 : Fin 2) * 5000 + 1 * r.val; omega
    | ⟨1, _⟩ => show win0_0.index t (1 : Fin 2) * 128 + 1 * k.val = k.val; omega
  have h1 : ∀ y : S128x128.Idx, ((cfg0.win 1).blk t).view.emb y = y := by
    intro y; funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  have h2 : ∀ q' : Fin 128, ((cfg0.win 2).blk t).view.emb (ix2 (0 : Fin 1) q') = ix2 (0 : Fin 1) q' := by
    intro q'; funext a; apply Fin.ext
    match a with
    | ⟨0, _⟩ => show win0_2.index t (0 : Fin 2) * 1 + 1 * 0 = 0; omega
    | ⟨1, _⟩ => show win0_2.index t (1 : Fin 2) * 128 + 1 * q'.val = q'.val; omega
  have h3 : (((cfg0.win 3).blk t).view.emb (ix2 r q)) 1 = q :=
    Fin.ext (by show win0_3.index t (1 : Fin 2) * 128 + 1 * q.val = q.val; omega)
  simp only [h0, h1, h2, h3]
  rfl

/-- An index of the output array lies in point t's block iff each coordinate lies in the block's range. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v1).slice (win0_3.rect t)).set ↔ _
  rw [View.set_slice_whole, Rect.mem_set_unit]
  exact Iff.rfl

/-- Every block-row is some point's. -/
theorem index_onto : ∀ b : Fin 20, ∃ t : Fin cfg0.N, win0_3.index t = ![b.val, 0] :=
  (by decide +kernel : ∀ b : Fin 20, ∃ t : Fin grid0.N, win0_3.index t = ![b.val, 0])

/-- The blocks tile the array: row i lies in the block of point i / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the region the output array is the projected array of what the region found in its operands. -/
theorem final (c : Dev nD) :
    (dat0 V c).arrAt 3 cfg0.N = projected (V c main_arg0) (V c main_arg2) (V c main_v0) :=
  (dat0 V c).arrAt_eq_of_cover 3 _ (fun t _ => flushed_eq V c t) (cover)

end Cert.KernelIdeal.Region0

end
-- ==== Proof.Region1.lean ====
/-
  The second region's output array, whole. Grid point t stages rows 5000 t .. 5000 t + 4999 of the neighbour sum, of
  the reciprocal-count column and of the projected features, together with the weights and bias rows whole, and writes
  back the same rows of the class scores. What it writes at local row r is the score row of global row 5000 t + r,
  whose aggregated entry k is the neighbour sum's entry times the row's reciprocal count; the twenty blocks tile the
  rows; so after the region the output array is that score, row by row.
-/
import proofs.«126765_j3324304687696_2_alg».proof.Proof.Gen.KernelIdeal.Frame
import proofs.«126765_j3324304687696_2_alg».proof.Proof.RowSpec
import proofs.«126765_j3324304687696_2_alg».proof.Proof.Payload
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The class scores of every node from the neighbour sum, the reciprocal-count column, the projected features and
    the weights; each bias is read from its one-row matrix. -/
def scored (S : S100000x128.Idx → EReal) (inv : S100000x1.Idx → EReal) (xp : S100000x128.Idx → EReal)
    (Wl : S128x128.Idx → EReal) (bl : S1x128.Idx → EReal) (Wr : S128x128.Idx → EReal) (Wf : S128x6.Idx → EReal)
    (bf : S1x6.Idx → EReal) : S100000x6.Idx → EReal :=
  fun i => Cert.NodeRow.score
    (Cert.NodeRow.pre (fun k => S (ix2 (i 0) k) * inv (ix2 (i 0) (0 : Fin 1))) (fun k => xp (ix2 (i 0) k)) Wl
      (fun q' => bl (ix2 (0 : Fin 1) q')) Wr)
    Wf (fun q' => bf (ix2 (0 : Fin 1) q')) (i 1)

/-- The index maps over the grid: the three row-blocked operands and the output are at block-row t; the weights and
    the bias rows are staged whole. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- What point t writes back is block t of the score array. -/
theorem flushed_eq (c : Dev nD) (t : Fin cfg1.N) :
    (dat1 V c).flushed 8 t
      = ((cfg1.win 8).blk t).view.read (Elt Ideal) (scored (V c main_v16) (V c main_v24) (V c main_v1) (V c main_arg4)
          (V c main_v25) (V c main_arg6) (V c main_arg7) (V c main_v26)) := by
  show (cfg1.win 8).cut (grid1.coords t) ((dat1 V c).after 8 t) = _
  rw [after1_8]
  unfold out1_8
  rw [View.canon_unit_zero origin]
  simp only [View.ld_unit_zero (S := S5000x128) origin, View.ld_unit_zero (S := S5000x1) origin,
    View.ld_unit_zero (S := S128x128) origin, View.ld_unit_zero (S := S1x128) origin,
    View.ld_unit_zero (S := S128x6) origin, View.ld_unit_zero (S := S1x6) origin]
  obtain ⟨e00, e01, e10, e11, e20, e21, e30, e31, e40, e41, e50, e51, e60, e61, e70, e71, e80, e81⟩ := index_facts t
  funext j
  obtain ⟨r, q, rfl⟩ : ∃ (r : Fin 5000) (q : Fin 6), j = ix2 r q := ⟨j 0, j 1, eq_ix2 j⟩
  show k1_pay1 (k1_pay2 (iblk1 V c 0 t) (iblk1 V c 1 t) (iblk1 V c 2 t) (iblk1 V c 3 t) (iblk1 V c 5 t) (iblk1 V c 4 t)
      (iblk1 V c 6 t)) (k1_pay3 (iblk1 V c 7 t)) (ix2 r q)
    = scored (V c main_v16) (V c main_v24) (V c main_v1) (V c main_arg4) (V c main_v25) (V c main_arg6) (V c main_arg7)
        (V c main_v26) (((cfg1.win 8).blk t).view.emb (ix2 r q))
  refine (Cert.KernelIdeal.Payload.score_at (iblk1 V c 0 t) (iblk1 V c 1 t) (iblk1 V c 2 t) (iblk1 V c 3 t) (iblk1 V c 5 t)
    (iblk1 V c 4 t) (iblk1 V c 6 t) (iblk1 V c 7 t) r q).trans ?_
  unfold scored
  have h0 : ∀ k : Fin 128, ((cfg1.win 0).blk t).view.emb (ix2 r k)
      = ix2 ((((cfg1.win 8).blk t).view.emb (ix2 r q)) 0) k := by
    intro k; funext a; apply Fin.ext
    match a with
    | ⟨0, _⟩ => show win1_0.index t (0 : Fin 2) * 5000 + 1 * r.val = win1_8.index t (0 : Fin 2) * 5000 + 1 * r.val; omega
    | ⟨1, _⟩ => show win1_0.index t (1 : Fin 2) * 128 + 1 * k.val = k.val; omega
  have h1 : ((cfg1.win 1).blk t).view.emb (ix2 r (0 : Fin 1))
      = ix2 ((((cfg1.win 8).blk t).view.emb (ix2 r q)) 0) (0 : Fin 1) := by
    funext a; apply Fin.ext
    match a with
    | ⟨0, _⟩ => show win1_1.index t (0 : Fin 2) * 5000 + 1 * r.val = win1_8.index t (0 : Fin 2) * 5000 + 1 * r.val; omega
    | ⟨1, _⟩ => show win1_1.index t (1 : Fin 2) * 1 + 1 * 0 = 0; omega
  have h2 : ∀ k : Fin 128, ((cfg1.win 2).blk t).view.emb (ix2 r k)
      = ix2 ((((cfg1.win 8).blk t).view.emb (ix2 r q)) 0) k := by
    intro k; funext a; apply Fin.ext
    match a with
    | ⟨0, _⟩ => show win1_2.index t (0 : Fin 2) * 5000 + 1 * r.val = win1_8.index t (0 : Fin 2) * 5000 + 1 * r.val; omega
    | ⟨1, _⟩ => show win1_2.index t (1 : Fin 2) * 128 + 1 * k.val = k.val; omega
  have h3 : ∀ y : S128x128.Idx, ((cfg1.win 3).blk t).view.emb y = y := by
    intro y; funext a; apply Fin.ext
    match a with
    | ⟨0, _⟩ => show win1_3.index t (0 : Fin 2) * 128 + 1 * (y 0).val = (y 0).val; omega
    | ⟨1, _⟩ => show win1_3.index t (1 : Fin 2) * 128 + 1 * (y 1).val = (y 1).val; omega
  have h4 : ∀ q' : Fin 128, ((cfg1.win 4).blk t).view.emb (ix2 (0 : Fin 1) q') = ix2 (0 : Fin 1) q' := by
    intro q'; funext a; apply Fin.ext
    match a with
    | ⟨0, _⟩ => show win1_4.index t (0 : Fin 2) * 1 + 1 * 0 = 0; omega
    | ⟨1, _⟩ => show win1_4.index t (1 : Fin 2) * 128 + 1 * q'.val = q'.val; omega
  have h5 : ∀ y : S128x128.Idx, ((cfg1.win 5).blk t).view.emb y = y := by
    intro y; funext a; apply Fin.ext
    match a with
    | ⟨0, _⟩ => show win1_5.index t (0 : Fin 2) * 128 + 1 * (y 0).val = (y 0).val; omega
    | ⟨1, _⟩ => show win1_5.index t (1 : Fin 2) * 128 + 1 * (y 1).val = (y 1).val; omega
  have h6 : ∀ y : S128x6.Idx, ((cfg1.win 6).blk t).view.emb y = y := by
    intro y; funext a; apply Fin.ext
    match a with
    | ⟨0, _⟩ => show win1_6.index t (0 : Fin 2) * 128 + 1 * (y 0).val = (y 0).val; omega
    | ⟨1, _⟩ => show win1_6.index t (1 : Fin 2) * 6 + 1 * (y 1).val = (y 1).val; omega
  have h7 : ∀ q' : Fin 6, ((cfg1.win 7).blk t).view.emb (ix2 (0 : Fin 1) q') = ix2 (0 : Fin 1) q' := by
    intro q'; funext a; apply Fin.ext
    match a with
    | ⟨0, _⟩ => show win1_7.index t (0 : Fin 2) * 1 + 1 * 0 = 0; omega
    | ⟨1, _⟩ => show win1_7.index t (1 : Fin 2) * 6 + 1 * q'.val = q'.val; omega
  have h8 : (((cfg1.win 8).blk t).view.emb (ix2 r q)) 1 = q :=
    Fin.ext (by show win1_8.index t (1 : Fin 2) * 6 + 1 * q.val = q.val; omega)
  have w0 : ∀ k : Fin 128, iblk1 V c 0 t (ix2 r k)
      = V c main_v16 (ix2 ((((cfg1.win 8).blk t).view.emb (ix2 r q)) 0) k) := fun k => by
    show V c main_v16 (((cfg1.win 0).blk t).view.emb (ix2 r k)) = _
    exact congrArg (V c main_v16) (h0 k)
  have w1 : iblk1 V c 1 t (ix2 r (0 : Fin 1))
      = V c main_v24 (ix2 ((((cfg1.win 8).blk t).view.emb (ix2 r q)) 0) (0 : Fin 1)) := by
    show V c main_v24 (((cfg1.win 1).blk t).view.emb (ix2 r (0 : Fin 1))) = _
    exact congrArg (V c main_v24) h1
  have w2 : ∀ k : Fin 128, iblk1 V c 2 t (ix2 r k)
      = V c main_v1 (ix2 ((((cfg1.win 8).blk t).view.emb (ix2 r q)) 0) k) := fun k => by
    show V c main_v1 (((cfg1.win 2).blk t).view.emb (ix2 r k)) = _
    exact congrArg (V c main_v1) (h2 k)
  have w3 : iblk1 V c 3 t = V c main_arg4 := funext fun y => by
    show V c main_arg4 (((cfg1.win 3).blk t).view.emb y) = _
    exact congrArg (V c main_arg4) (h3 y)
  have w4 : ∀ q' : Fin 128, iblk1 V c 4 t (ix2 (0 : Fin 1) q') = V c main_v25 (ix2 (0 : Fin 1) q') := fun q' => by
    show V c main_v25 (((cfg1.win 4).blk t).view.emb (ix2 (0 : Fin 1) q')) = _
    exact congrArg (V c main_v25) (h4 q')
  have w5 : iblk1 V c 5 t = V c main_arg6 := funext fun y => by
    show V c main_arg6 (((cfg1.win 5).blk t).view.emb y) = _
    exact congrArg (V c main_arg6) (h5 y)
  have w6 : iblk1 V c 6 t = V c main_arg7 := funext fun y => by
    show V c main_arg7 (((cfg1.win 6).blk t).view.emb y) = _
    exact congrArg (V c main_arg7) (h6 y)
  have w7 : ∀ q' : Fin 6, iblk1 V c 7 t (ix2 (0 : Fin 1) q') = V c main_v26 (ix2 (0 : Fin 1) q') := fun q' => by
    show V c main_v26 (((cfg1.win 7).blk t).view.emb (ix2 (0 : Fin 1) q')) = _
    exact congrArg (V c main_v26) (h7 q')
  simp only [w0, w1, w2, w3, w4, w5, w6, w7, h8]

/-- An index of the score array lies in point t's block iff each coordinate lies in the block's range. -/
theorem mem_blk (t : Fin cfg1.N) (i : S100000x6.Idx) :
    i ∈ ((cfg1.win 8).blk t).view.set ↔ ∀ a : Fin 2, win1_8.index t a * S5000x6.size a ≤ (i a).val
      ∧ (i a).val < win1_8.index t a * S5000x6.size a + S5000x6.size a := by
  show i ∈ ((View.whole main_v27).slice (win1_8.rect t)).set ↔ _
  rw [View.set_slice_whole, Rect.mem_set_unit]
  exact Iff.rfl

/-- Every block-row is some point's. -/
theorem index_onto : ∀ b : Fin 20, ∃ t : Fin cfg1.N, win1_8.index t = ![b.val, 0] :=
  (by decide +kernel : ∀ b : Fin 20, ∃ t : Fin grid1.N, win1_8.index t = ![b.val, 0])

/-- The blocks tile the array: row i lies in the block of point i / 5000. -/
theorem cover (i : S100000x6.Idx) :
    ∃ t : Fin cfg1.N, (cfg1.win 8).flush t = true ∧ i ∈ ((cfg1.win 8).blk t).view.set := by
  have hi0 : (i 0).val < 100000 := (i 0).isLt
  have hi1 : (i 1).val < 6 := (i 1).isLt
  obtain ⟨t, ht⟩ := index_onto ⟨(i 0).val / 5000, by omega⟩
  have q0 : win1_8.index t (0 : Fin 2) = (i 0).val / 5000 := congrFun ht 0
  have q1 : win1_8.index t (1 : Fin 2) = 0 := congrFun ht 1
  refine ⟨t, flush1_8 t, ?_⟩
  rw [mem_blk]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 6 ≤ (i 1).val ∧ (i 1).val < win1_8.index t (1 : Fin 2) * 6 + 6; omega

/-- After the region the output array is the score array of what the region found in its operands. -/
theorem final (c : Dev nD) :
    (dat1 V c).arrAt 8 cfg1.N = scored (V c main_v16) (V c main_v24) (V c main_v1) (V c main_arg4) (V c main_v25)
      (V c main_arg6) (V c main_arg7) (V c main_v26) :=
  (dat1 V c).arrAt_eq_of_cover 8 _ (fun t _ => flushed_eq V c t) (cover)

end Cert.KernelIdeal.Region1

end
-- ==== Proof.RefRows.lean ====
/-
  The reference layer read one node at a time.

  The reference computes the whole layer array by array. Every step after the two neighbour scatters is row-local:
  entry `(p, q)` of each intermediate array depends only on row `p` of the arrays before it. This module reads
  each such array at coordinates `(p, q)` and shows that what stands there is the corresponding entry of the
  one-node specification: the projected features are `proj` of the input row; the output before normalisation is
  `pre` of the aggregated row and the node's own projected row; its Euclidean length is `len`; the normalised,
  rectified row is `unit`; and the result is `score`.

  The neighbour sum, the clamped neighbour count and the projected features appear on the right-hand sides only as
  named arrays read on row `p`: nothing here depends on how the scatters fill them. The aggregated row is the
  neighbour sum divided entrywise by the clamped count of the same node, because the count is first spread along
  the row and the quotient is taken entry by entry.

  All matrix products are sums over the 128 shared coordinates; the sum of squares starts from the initial value
  zero, which is the additive identity of the extended reals and drops out. No algebraic law beyond that is used:
  both sides are the same expression once the index maps are resolved.
-/
import proofs.«126765_j3324304687696_2_alg».proof.Proof.Gen.ReferenceIdeal.Read
import proofs.«126765_j3324304687696_2_alg».proof.Proof.RowSpec
import Idealize.ShloMosaic.Lib.ValueIdx
import Idealize.ShloMosaic.PureOps.Ideal.Laws

noncomputable section

namespace Cert.ReferenceIdeal.RefRows

open Idealize.ShloMosaic Idealize.ShloMosaic.ValueIdx Cert.ReferenceIdeal Cert.ReferenceIdeal.Read

/-! ## Where the composed index maps land

Each layout step of the program reads its operand at an index computed from the result's index. At a result index
given by coordinates `(p, q)` these computed indices are again plain coordinate pairs: a product's left factor is read
along row `p`, its right factor down column `q`; a bias broadcast over rows is read at `q`; a per-row scalar broadcast
over columns is read at `p`. -/

theorem lidx0 (p : Fin 100000) (q k : Fin 128) : lidx_main_v0 (ix2 p q) k = ix2 p k := funext fun a => Fin.ext (by match a with | ⟨0, _⟩ => rfl | ⟨1, _⟩ => rfl)
theorem ridx0 (p : Fin 100000) (q k : Fin 128) : ridx_main_v0 (ix2 p q) k = ix2 k q := funext fun a => Fin.ext (by match a with | ⟨0, _⟩ => rfl | ⟨1, _⟩ => rfl)
theorem bias3 (p : Fin 100000) (q : Fin 128) : idx_main_v1 (idx_main_v2 (ix2 p q)) = ix1 q := funext fun a => Fin.ext (by match a with | ⟨0, _⟩ => rfl)

theorem lidx27 (p : Fin 100000) (q k : Fin 128) : lidx_main_v27 (ix2 p q) k = ix2 p k := funext fun a => Fin.ext (by match a with | ⟨0, _⟩ => rfl | ⟨1, _⟩ => rfl)
theorem ridx27 (p : Fin 100000) (q k : Fin 128) : ridx_main_v27 (ix2 p q) k = ix2 k q := funext fun a => Fin.ext (by match a with | ⟨0, _⟩ => rfl | ⟨1, _⟩ => rfl)
theorem count25 (p : Fin 100000) (k : Fin 128) : idx_main_v24 (idx_main_v25 (ix2 p k)) = ix1 p := funext fun a => Fin.ext (by match a with | ⟨0, _⟩ => rfl)
theorem bias29 (p : Fin 100000) (q : Fin 128) : idx_main_v28 (idx_main_v29 (ix2 p q)) = ix1 q := funext fun a => Fin.ext (by match a with | ⟨0, _⟩ => rfl)
theorem lidx31 (p : Fin 100000) (q k : Fin 128) : lidx_main_v31 (ix2 p q) k = ix2 p k := funext fun a => Fin.ext (by match a with | ⟨0, _⟩ => rfl | ⟨1, _⟩ => rfl)
theorem ridx31 (p : Fin 100000) (q k : Fin 128) : ridx_main_v31 (ix2 p q) k = ix2 k q := funext fun a => Fin.ext (by match a with | ⟨0, _⟩ => rfl | ⟨1, _⟩ => rfl)

theorem col35 (p : Fin 100000) (k : Fin 128) : idx_main_v35 (ix2 p k) = ix2 p (0 : Fin 1) := funext fun a => Fin.ext (by match a with | ⟨0, _⟩ => rfl | ⟨1, _⟩ => rfl)
theorem row2 (p : Fin 100000) : idx_main_call2_v2 (ix2 p (0 : Fin 1)) = ix1 p := funext fun a => Fin.ext (by match a with | ⟨0, _⟩ => rfl)
theorem lane1 (p : Fin 100000) (k : Fin 128) : idx_main_call2_v1 (ix1 p) k = ix2 p k := funext fun a => Fin.ext (by match a with | ⟨0, _⟩ => rfl | ⟨1, _⟩ => rfl)

theorem lidx38 (p : Fin 100000) (q : Fin 6) (k : Fin 128) : lidx_main_v38 (ix2 p q) k = ix2 p k := funext fun a => Fin.ext (by match a with | ⟨0, _⟩ => rfl | ⟨1, _⟩ => rfl)
theorem ridx38 (p : Fin 100000) (q : Fin 6) (k : Fin 128) : ridx_main_v38 (ix2 p q) k = ix2 k q := funext fun a => Fin.ext (by match a with | ⟨0, _⟩ => rfl | ⟨1, _⟩ => rfl)
theorem bias40 (p : Fin 100000) (q : Fin 6) : idx_main_v39 (idx_main_v40 (ix2 p q)) = ix1 q := funext fun a => Fin.ext (by match a with | ⟨0, _⟩ => rfl)

/-! ## The projected features

Entry `(p, q)` of the first stage is row `p` of the input against column `q` of the projection matrix, plus entry `q`
of the bias, rectified: a function of row `p` alone. -/

theorem xp_at (x0 : (⟨S100000x128, .f32⟩ : BufTy).Contents (Elt Ideal)) (x2 : (⟨S128x128, .f32⟩ : BufTy).Contents (Elt Ideal))
    (x3 : (⟨S128, .f32⟩ : BufTy).Contents (Elt Ideal)) (p : Fin 100000) (q : Fin 128) :
    val_main_v4 (F := Ideal) x0 x2 x3 (ix2 p q)
      = Cert.NodeRow.proj (fun k => x0 (ix2 p k)) x2 (fun q' => x3 (ix1 q')) q := by
  rw [val_main_v4_apply, val_main_v3_apply, val_main_v0_apply, val_main_v2_apply, val_main_v1_apply,
    val_main_call0_v0_apply, val_main_call0_cst_apply, bias3]
  simp only [lidx0, ridx0]
  rfl

/-! ## The aggregated row

The clamped count is spread from a vector to a one-column array and then along the row, so at `(p, k)` it is the
count of node `p`; the aggregated entry is the neighbour sum at `(p, k)` divided by it. -/

theorem agg_at (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (p : Fin 100000) (k : Fin 128) :
    val_main_v26 (F := Ideal) x0 x1 x2 x3 (ix2 p k)
      = Ideal.div (val_main_v18 (F := Ideal) x0 x1 x2 x3 (ix2 p k)) (val_main_v23 (F := Ideal) x1 (ix1 p)) := by
  rw [val_main_v26_apply, val_main_v25_apply, val_main_v24_apply, count25]
  rfl

/-! ## The output before normalisation

Entry `(p, q)` is the aggregated row of node `p` against column `q` of the first matrix, plus entry `q` of the bias,
plus the node's own projected row against column `q` of the second matrix. Each product is read as a sum over the
shared coordinate, term by term. -/

theorem left_at (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (p : Fin 100000) (q : Fin 128) :
    val_main_v27 (F := Ideal) x0 x1 x2 x3 x4 (ix2 p q)
      = ∑ k : Fin 128, Ideal.div (val_main_v18 (F := Ideal) x0 x1 x2 x3 (ix2 p k)) (val_main_v23 (F := Ideal) x1 (ix1 p))
          * x4 (ix2 k q) := by
  rw [val_main_v27_apply]
  exact Finset.sum_congr rfl fun k _ => by rw [lidx27, ridx27, agg_at]

theorem own_at (x0 : (⟨S100000x128, .f32⟩ : BufTy).Contents (Elt Ideal)) (x2 : (⟨S128x128, .f32⟩ : BufTy).Contents (Elt Ideal))
    (x3 : (⟨S128, .f32⟩ : BufTy).Contents (Elt Ideal)) (x6 : (⟨S128x128, .f32⟩ : BufTy).Contents (Elt Ideal)) (p : Fin 100000) (q : Fin 128) :
    val_main_v31 (F := Ideal) x0 x2 x3 x6 (ix2 p q)
      = ∑ k : Fin 128, val_main_v4 (F := Ideal) x0 x2 x3 (ix2 p k) * x6 (ix2 k q) := by
  rw [val_main_v31_apply]
  exact Finset.sum_congr rfl fun k _ => by rw [lidx31, ridx31]

theorem biasl_at (x5 : (⟨S128, .f32⟩ : BufTy).Contents (Elt Ideal)) (p : Fin 100000) (q : Fin 128) :
    val_main_v29 (F := Ideal) x5 (ix2 p q) = x5 (ix1 q) := by
  rw [val_main_v29_apply, val_main_v28_apply, bias29]

theorem pre_at (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (p : Fin 100000) (q : Fin 128) :
    val_main_v32 (F := Ideal) x0 x1 x2 x3 x4 x5 x6 (ix2 p q)
      = (Cert.NodeRow.pre (fun k => Ideal.div (val_main_v18 (F := Ideal) x0 x1 x2 x3 (ix2 p k)) (val_main_v23 (F := Ideal) x1 (ix1 p)))
        (fun k => val_main_v4 (F := Ideal) x0 x2 x3 (ix2 p k)) x4 (fun q' => x5 (ix1 q')) x6) q := by
  rw [val_main_v32_apply, val_main_v30_apply, left_at, biasl_at, own_at]
  rfl

/-! ## The Euclidean length of a row

The squares of row `p` of the output are summed from the initial value zero, which drops out; the root of that sum
is kept in a one-column array and read at `(p, 0)`. -/

theorem sq_at (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (p : Fin 100000) :
    val_main_call2_v1 (F := Ideal) x0 x1 x2 x3 x4 x5 x6 (ix1 p)
      = ∑ k : Fin 128, (Cert.NodeRow.pre (fun k => Ideal.div (val_main_v18 (F := Ideal) x0 x1 x2 x3 (ix2 p k)) (val_main_v23 (F := Ideal) x1 (ix1 p)))
        (fun k => val_main_v4 (F := Ideal) x0 x2 x3 (ix2 p k)) x4 (fun q' => x5 (ix1 q')) x6) k
          * (Cert.NodeRow.pre (fun k => Ideal.div (val_main_v18 (F := Ideal) x0 x1 x2 x3 (ix2 p k)) (val_main_v23 (F := Ideal) x1 (ix1 p)))
        (fun k => val_main_v4 (F := Ideal) x0 x2 x3 (ix2 p k)) x4 (fun q' => x5 (ix1 q')) x6) k := by
  rw [val_main_call2_v1_apply, val_main_call2_cst_apply, Ideal.ofBits_def, Ideal.ofBits_zero_f32, zero_add]
  exact Finset.sum_congr rfl fun k _ => by rw [lane1, val_main_call2_v0_apply, Ideal.mulf_def, pre_at]

theorem len_at (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (p : Fin 100000) :
    val_main_v33 (F := Ideal) x0 x1 x2 x3 x4 x5 x6 (ix2 p (0 : Fin 1))
      = Cert.NodeRow.len (Cert.NodeRow.pre (fun k => Ideal.div (val_main_v18 (F := Ideal) x0 x1 x2 x3 (ix2 p k)) (val_main_v23 (F := Ideal) x1 (ix1 p)))
        (fun k => val_main_v4 (F := Ideal) x0 x2 x3 (ix2 p k)) x4 (fun q' => x5 (ix1 q')) x6) := by
  unfold Cert.NodeRow.len
  rw [val_main_v33_apply, val_main_call2_v2_apply, row2, sq_at, Ideal.hostUnary_sqrt_def]

/-! ## The normalised, rectified row

Entry `(p, k)` of the output is divided by the larger of the floor and the length of row `p` (the length spread
along the row), and the quotient is rectified. -/

theorem unit_at (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (p : Fin 100000) (k : Fin 128) :
    val_main_v37 (F := Ideal) x0 x1 x2 x3 x4 x5 x6 (ix2 p k)
      = Cert.NodeRow.unit (Cert.NodeRow.pre (fun k => Ideal.div (val_main_v18 (F := Ideal) x0 x1 x2 x3 (ix2 p k)) (val_main_v23 (F := Ideal) x1 (ix1 p)))
        (fun k => val_main_v4 (F := Ideal) x0 x2 x3 (ix2 p k)) x4 (fun q' => x5 (ix1 q')) x6) k := by
  rw [val_main_v37_apply, val_main_v36_apply, val_main_v35_apply, col35, val_main_v34_apply, val_main_call3_v1_apply,
    val_main_call3_v0_apply, val_main_cst_4_apply, val_main_call4_v0_apply, val_main_call4_cst_apply, pre_at, len_at]
  rfl

/-! ## The class scores

Entry `(p, q)` of the result is the normalised, rectified row of node `p` against column `q` of the classifier
matrix, plus entry `q` of its bias. -/

theorem scores_at (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal))
    (x7 : (⟨S128x6, .f32⟩ : BufTy).Contents (Elt Ideal)) (p : Fin 100000) (q : Fin 6) :
    val_main_v38 (F := Ideal) x0 x1 x2 x3 x4 x5 x6 x7 (ix2 p q)
      = ∑ k : Fin 128, Cert.NodeRow.unit (Cert.NodeRow.pre (fun k => Ideal.div (val_main_v18 (F := Ideal) x0 x1 x2 x3 (ix2 p k)) (val_main_v23 (F := Ideal) x1 (ix1 p)))
        (fun k => val_main_v4 (F := Ideal) x0 x2 x3 (ix2 p k)) x4 (fun q' => x5 (ix1 q')) x6) k * x7 (ix2 k q) := by
  rw [val_main_v38_apply]
  exact Finset.sum_congr rfl fun k _ => by rw [lidx38, ridx38, unit_at]

theorem biasf_at (x8 : (⟨S6, .f32⟩ : BufTy).Contents (Elt Ideal)) (p : Fin 100000) (q : Fin 6) :
    val_main_v40 (F := Ideal) x8 (ix2 p q) = x8 (ix1 q) := by
  rw [val_main_v40_apply, val_main_v39_apply, bias40]

theorem result_at (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal))
    (x7 : (⟨S128x6, .f32⟩ : BufTy).Contents (Elt Ideal)) (x8 : (⟨S6, .f32⟩ : BufTy).Contents (Elt Ideal)) (p : Fin 100000) (q : Fin 6) :
    val_main_v41 (F := Ideal) x0 x1 x2 x3 x4 x5 x6 x7 x8 (ix2 p q)
      = Cert.NodeRow.score (Cert.NodeRow.pre (fun k => Ideal.div (val_main_v18 (F := Ideal) x0 x1 x2 x3 (ix2 p k)) (val_main_v23 (F := Ideal) x1 (ix1 p)))
        (fun k => val_main_v4 (F := Ideal) x0 x2 x3 (ix2 p k)) x4 (fun q' => x5 (ix1 q')) x6) x7 (fun q' => x8 (ix1 q')) q := by
  rw [val_main_v41_apply, scores_at, biasf_at]
  rfl

end Cert.ReferenceIdeal.RefRows

end
-- ==== Proof.Bridge.lean ====
/-
  The two programs compute the same class scores.

  The idealized kernel's result array is the score array of the neighbour sum, the reciprocal-count column and the
  projected features it built; the reference's is the row-wise score of its own neighbour sum, clamped count and
  projected features. The projected features agree because both are the row-wise projection of the same inputs (a bias
  vector viewed as a one-row matrix reads the same entries). The neighbour sum and the clamped count agree because
  both programs apply the same gather, the same two scatter-additions and the same clamp to equal operands; those
  operations are compared as whole functions and never opened. What remains is one law per entry of the aggregated
  row: the sum times the reciprocal of the clamped count is the sum divided by it, since a count clamped below by one
  is not zero. No input needs to be finite for any of this.
-/
import proofs.«126765_j3324304687696_2_alg».proof.Defs
import proofs.«126765_j3324304687696_2_alg».proof.Proof.Gen.Kernel.Frame
import proofs.«126765_j3324304687696_2_alg».proof.Proof.Gen.KernelIdeal.Frame
import proofs.«126765_j3324304687696_2_alg».proof.Proof.Gen.ReferenceIdeal.Run
import proofs.«126765_j3324304687696_2_alg».proof.Proof.Gen.ReferenceIdeal.Read
import proofs.«126765_j3324304687696_2_alg».proof.Proof.KernelRun
import proofs.«126765_j3324304687696_2_alg».proof.Proof.HostSide
import proofs.«126765_j3324304687696_2_alg».proof.Proof.Region0
import proofs.«126765_j3324304687696_2_alg».proof.Proof.Region1
import proofs.«126765_j3324304687696_2_alg».proof.Proof.RefRows
import proofs.«126765_j3324304687696_2_alg».proof.Proof.LibColumn
import Idealize.ShloMosaic.Lib.ValueLayout
import Idealize.ShloMosaic.Lib.IdealHost

noncomputable section

namespace Cert.Bridge

open Idealize.ShloMosaic Idealize.ShloMosaic.TcCoe Idealize.ShloMosaic.ValueIdx Idealize.SL.Sem
open Cert.ReferenceIdeal Cert.ReferenceIdeal.Read

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128x6, .f32⟩ : BufTy).Contents (Elt Ideal))
  (x8 : (⟨S6, .f32⟩ : BufTy).Contents (Elt Ideal))

/-- The clamped count is the same function of the edge list in both programs. -/
theorem count_eq : Cert.KernelIdeal.Host.count (F := Ideal) x1 = val_main_v23 (F := Ideal) x1 := by
  unfold Cert.KernelIdeal.Host.count val_main_v23 val_main_v22 val_main_call1_v1 val_main_call1_v0 val_main_cst_3
    val_main_v21 val_main_v20 val_main_v19 val_main_cst_2 val_main_cst_1 val_main_v8 val_main_v7 Cert.KernelIdeal.Host.dests
  rfl

/-- The neighbour sum is the same function of the projected features and the edge list in both programs. -/
theorem nsum_eq :
    Cert.KernelIdeal.Host.nsum (F := Ideal) (val_main_v4 (F := Ideal) x0 x2 x3) x1 = val_main_v18 (F := Ideal) x0 x1 x2 x3 := by
  unfold val_main_v18 val_main_v15
  generalize val_main_v4 (F := Ideal) x0 x2 x3 = xp
  rfl

/-- A clamped count is never zero: it is the larger of one and the count. -/
theorem count_ne_zero (i : S100000.Idx) : val_main_v23 (F := Ideal) x1 i ≠ 0 := by
  rw [val_main_v23_apply, val_main_call1_v1_apply, val_main_call1_v0_apply, val_main_cst_3_apply, Ideal.maximumf_def,
    Ideal.ofBits_def, Ideal.ofBits_one_f32]
  exact Cert.NodeRow.clamped_ne_zero _ _ zero_lt_one

/-- The reciprocal-count column at row p is one over the clamped count of node p. -/
theorem recip_at (p : Fin 100000) :
    Cert.KernelIdeal.Host.recip (F := Ideal) x1 (ix2 p (0 : Fin 1)) = Ideal.div 1 (val_main_v23 (F := Ideal) x1 (ix1 p)) := by
  unfold Cert.KernelIdeal.Host.recip
  rw [count_eq]
  generalize val_main_v23 (F := Ideal) x1 = cc
  refine (Cert.GraphConv.Column.shapeCast_a_a1_apply (a := 100000) _ _ p 0).trans ?_
  refine (hostDivf_apply _ _ (ix1 p)).trans ?_
  refine congrArg (fun u => Ideal.div u (cc (ix1 p))) ?_
  exact (broadcastInDim_scalar_apply _ _ _).trans ((constant_apply _ _).trans Ideal.ofBits_one_f32)

/-- A vector viewed as a one-row matrix reads the vector's entries. -/
theorem row128_at (v : (⟨S128, .f32⟩ : BufTy).Contents (Elt Ideal)) (q' : Fin 128) :
    shapeCast Cert.KernelIdeal.S1x128 v Cert.KernelIdeal.Gen.shapeCasts_S128_S1x128 (ix2 (0 : Fin 1) q') = v (ix1 q') :=
  shapeCast_a_1a_apply (a := 128) v _ 0 q'

theorem row6_at (v : (⟨S6, .f32⟩ : BufTy).Contents (Elt Ideal)) (q' : Fin 6) :
    shapeCast Cert.KernelIdeal.S1x6 v Cert.KernelIdeal.Gen.shapeCasts_S6_S1x6 (ix2 (0 : Fin 1) q') = v (ix1 q') :=
  shapeCast_a_1a_apply (a := 6) v _ 0 q'

/-- The kernel's projected array is the reference's: both are the row-wise projection of the same inputs. -/
theorem projected_eq :
    Cert.KernelIdeal.Region0.projected x0 x2 (shapeCast Cert.KernelIdeal.S1x128 x3 Cert.KernelIdeal.Gen.shapeCasts_S128_S1x128) = val_main_v4 (F := Ideal) x0 x2 x3 := by
  funext i
  obtain ⟨p, q, rfl⟩ : ∃ (p : Fin 100000) (q : Fin 128), i = ix2 p q := ⟨i 0, i 1, eq_ix2 i⟩
  refine Eq.trans ?_ (Cert.ReferenceIdeal.RefRows.xp_at x0 x2 x3 p q).symm
  show Cert.NodeRow.proj (fun k => x0 (ix2 p k)) x2 (fun q' => shapeCast Cert.KernelIdeal.S1x128 x3 Cert.KernelIdeal.Gen.shapeCasts_S128_S1x128 (ix2 (0 : Fin 1) q')) q = _
  rw [show (fun q' : Fin 128 => shapeCast Cert.KernelIdeal.S1x128 x3 Cert.KernelIdeal.Gen.shapeCasts_S128_S1x128 (ix2 (0 : Fin 1) q')) = (fun q' => x3 (ix1 q'))
    from funext (row128_at x3)]

/-- The kernel's score array is the reference's result. -/
theorem scored_eq :
    Cert.KernelIdeal.Region1.scored
        (Cert.KernelIdeal.Host.nsum (F := Ideal) (Cert.KernelIdeal.Region0.projected x0 x2 (shapeCast Cert.KernelIdeal.S1x128 x3 Cert.KernelIdeal.Gen.shapeCasts_S128_S1x128)) x1)
        (Cert.KernelIdeal.Host.recip (F := Ideal) x1)
        (Cert.KernelIdeal.Region0.projected x0 x2 (shapeCast Cert.KernelIdeal.S1x128 x3 Cert.KernelIdeal.Gen.shapeCasts_S128_S1x128))
        x4 (shapeCast Cert.KernelIdeal.S1x128 x5 Cert.KernelIdeal.Gen.shapeCasts_S128_S1x128) x6 x7
        (shapeCast Cert.KernelIdeal.S1x6 x8 Cert.KernelIdeal.Gen.shapeCasts_S6_S1x6)
      = val_main_v41 (F := Ideal) x0 x1 x2 x3 x4 x5 x6 x7 x8 := by
  rw [projected_eq, nsum_eq]
  funext i
  obtain ⟨p, q, rfl⟩ : ∃ (p : Fin 100000) (q : Fin 6), i = ix2 p q := ⟨i 0, i 1, eq_ix2 i⟩
  refine Eq.trans ?_ (Cert.ReferenceIdeal.RefRows.result_at x0 x1 x2 x3 x4 x5 x6 x7 x8 p q).symm
  have hagg : (fun k : Fin 128 => @HMul.hMul EReal EReal EReal _ (val_main_v18 (F := Ideal) x0 x1 x2 x3 (ix2 p k))
        (Cert.KernelIdeal.Host.recip (F := Ideal) x1 (ix2 p (0 : Fin 1))))
      = (fun k => Ideal.div (val_main_v18 (F := Ideal) x0 x1 x2 x3 (ix2 p k)) (val_main_v23 (F := Ideal) x1 (ix1 p))) :=
    funext fun k => by
      rw [recip_at]
      exact Cert.NodeRow.mul_recip_eq_div _ _ (count_ne_zero x1 (ix1 p))
  show Cert.NodeRow.score
      (Cert.NodeRow.pre
        (fun k : Fin 128 => @HMul.hMul EReal EReal EReal _ (val_main_v18 (F := Ideal) x0 x1 x2 x3 (ix2 p k))
          (Cert.KernelIdeal.Host.recip (F := Ideal) x1 (ix2 p (0 : Fin 1))))
        (fun k => val_main_v4 (F := Ideal) x0 x2 x3 (ix2 p k)) x4
        (fun q' => shapeCast Cert.KernelIdeal.S1x128 x5 Cert.KernelIdeal.Gen.shapeCasts_S128_S1x128 (ix2 (0 : Fin 1) q')) x6)
      x7 (fun q' => shapeCast Cert.KernelIdeal.S1x6 x8 Cert.KernelIdeal.Gen.shapeCasts_S6_S1x6 (ix2 (0 : Fin 1) q')) q = _
  rw [hagg,
    show (fun q' : Fin 128 => shapeCast Cert.KernelIdeal.S1x128 x5 Cert.KernelIdeal.Gen.shapeCasts_S128_S1x128 (ix2 (0 : Fin 1) q')) = (fun q' => x5 (ix1 q')) from funext (row128_at x5),
    show (fun q' : Fin 6 => shapeCast Cert.KernelIdeal.S1x6 x8 Cert.KernelIdeal.Gen.shapeCasts_S6_S1x6 (ix2 (0 : Fin 1) q'))
      = (fun q' => x8 (ix1 q')) from funext (row6_at x8)]

end Cert.Bridge

end
-- ==== Proof.lean ====
/-
  The certificate: a two-stage graph layer on a TPU against its plain reference.

  The kernel projects the node features in one pipelined region, gathers and scatter-adds them along the edges on the
  host, and in a second pipelined region forms the mean aggregation, the two linear maps, the Euclidean normalisation,
  the rectifier and the classifier. The reference does the same array by array. Read over the extended reals the two
  agree at every entry: changes of float format are the identity, a blocked matrix product is the matrix product, and
  the one arithmetic difference - the neighbour sum times the reciprocal of the clamped neighbour count against the
  sum divided by the clamped count - is no difference because a count clamped below by one is never zero. No
  finiteness of the inputs is needed.

  Each program's frame is its run with the value forgotten. The idealization rewrote nothing, so there is nothing to
  preserve. For the value claim the kernel's run ends with its result buffer at the second region's output array;
  that array is the row-wise score of what the region found in its operands; the operands are the host chain applied
  to the first region's output array, which is the row-wise projection of the inputs; and the reference's run ends at
  the same row-wise function of the same inputs.
-/
import proofs.«126765_j3324304687696_2_alg».proof.Defs
import proofs.«126765_j3324304687696_2_alg».proof.Proof.Gen.Kernel
import proofs.«126765_j3324304687696_2_alg».proof.Proof.Gen.Kernel.Skeleton
import proofs.«126765_j3324304687696_2_alg».proof.Proof.Gen.Kernel.Launch
import proofs.«126765_j3324304687696_2_alg».proof.Proof.Gen.Kernel.Points
import proofs.«126765_j3324304687696_2_alg».proof.Proof.Gen.Kernel.Frame
import proofs.«126765_j3324304687696_2_alg».proof.Proof.Gen.KernelIdeal
import proofs.«126765_j3324304687696_2_alg».proof.Proof.Gen.KernelIdeal.Skeleton
import proofs.«126765_j3324304687696_2_alg».proof.Proof.Gen.KernelIdeal.Launch
import proofs.«126765_j3324304687696_2_alg».proof.Proof.Gen.KernelIdeal.Points
import proofs.«126765_j3324304687696_2_alg».proof.Proof.Gen.KernelIdeal.Frame
import proofs.«126765_j3324304687696_2_alg».proof.Proof.Gen.ReferenceIdeal
import proofs.«126765_j3324304687696_2_alg».proof.Proof.Gen.ReferenceIdeal.Run
import proofs.«126765_j3324304687696_2_alg».proof.Proof.Gen.ReferenceIdeal.Read
import proofs.«126765_j3324304687696_2_alg».proof.Proof.Gen.Pre_finite_inputs
import proofs.«126765_j3324304687696_2_alg».proof.Proof.KernelRun
import proofs.«126765_j3324304687696_2_alg».proof.Proof.HostSide
import proofs.«126765_j3324304687696_2_alg».proof.Proof.Region0
import proofs.«126765_j3324304687696_2_alg».proof.Proof.Region1
import proofs.«126765_j3324304687696_2_alg».proof.Proof.Bridge
import Idealize.ShloMosaic.Adequacy
import Idealize.ShloMosaic.Init

noncomputable section

namespace Cert.Proof

open Idealize.ShloMosaic Idealize.ShloMosaic.TcCoe Idealize.SL.Sem

/-- After the run the kernel's result buffer holds the reference's result function of the launch arguments: the
    second region's output array is the score array of its operands; the operands are the neighbour sum and the
    reciprocal count of the first region's output array and the edge list, that array itself, and the weights as
    launched; the first region's output array is the projection of the inputs as launched. -/
theorem kernel_value (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) :
    Cert.KernelIdeal.Gen.W6 m ρ c (Proc.devRef .tc Cert.KernelIdeal.main_v27)
      = Cert.ReferenceIdeal.Read.val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  have e8 : Cert.KernelIdeal.Gen.W6 m ρ c (Proc.devRef .tc Cert.KernelIdeal.main_v27)
      = (Cert.KernelIdeal.Gen.dat1 (Cert.KernelIdeal.Gen.V5 m ρ) c).arrAt 8 Cert.KernelIdeal.cfg1.N := Cert.KernelIdeal.Gen.W6_arr m ρ c 8
  have e3 : Cert.KernelIdeal.Gen.W2 m ρ c (Proc.devRef .tc Cert.KernelIdeal.main_v1)
      = (Cert.KernelIdeal.Gen.dat0 (Cert.KernelIdeal.Gen.V1 m ρ) c).arrAt 3 Cert.KernelIdeal.cfg0.N := Cert.KernelIdeal.Gen.W2_arr m ρ c 3
  rw [e8, Cert.KernelIdeal.Region1.final (Cert.KernelIdeal.Gen.V5 m ρ) c, Cert.KernelIdeal.Host.in1_sum m ρ c, Cert.KernelIdeal.Host.in1_recip m ρ c,
    Cert.KernelIdeal.Host.in1_xp m ρ c, Cert.KernelIdeal.Host.in1_wl m ρ c, Cert.KernelIdeal.Host.in1_bl m ρ c, Cert.KernelIdeal.Host.in1_wr m ρ c,
    Cert.KernelIdeal.Host.in1_wf m ρ c, Cert.KernelIdeal.Host.in1_bf m ρ c, e3, Cert.KernelIdeal.Region0.final (Cert.KernelIdeal.Gen.V1 m ρ) c,
    Cert.KernelIdeal.Host.in0_x m ρ c, Cert.KernelIdeal.Host.in0_w m ρ c, Cert.KernelIdeal.Host.in0_b m ρ c]
  exact Cert.Bridge.scored_eq _ _ _ _ _ _ _ _ _

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the same result: the kernel's at its result buffer's final contents, the reference's at its
    result term, which is the same function of arguments that agree. -/
theorem algebraic : Cert.algebraic_KernelIdeal_ReferenceIdeal := by
  intro m ρ m' ρ' _ hagree
  refine ⟨fun c => Cert.KernelIdeal.Gen.W6 m ρ c (Proc.devRef .tc Cert.KernelIdeal.main_v27), Cert.KernelIdeal.Named.run_named m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v41_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact (kernel_value m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
